-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S1x4096 : Shape := ⟨2, ![1, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S16384x4096 .f32) (main_arg1 : FVec F S4096x4096 .f32) (main_arg2 : FVec F S1x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S1x4096 : Shape := ⟨2, ![1, 4096]⟩
abbrev S_ : Shape := ⟨0, ![]⟩
abbrev S16384x1 : Shape := ⟨2, ![16384, 1]⟩
abbrev S512x512 : Shape := ⟨2, ![512, 512]⟩
abbrev S4096x512 : Shape := ⟨2, ![4096, 512]⟩
abbrev S512x1 : Shape := ⟨2, ![512, 1]⟩
abbrev S512x4096 : Shape := ⟨2, ![512, 4096]⟩
abbrev S512 : Shape := ⟨1, ![512]⟩
abbrev S16384 : Shape := ⟨1, ![16384]⟩

abbrev nBuf : Space → Nat
  | .hbm => 24
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S1x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S_, .f32⟩
  | .hbm, ⟨13, _⟩ => ⟨S1x4096, .f32⟩
  | .hbm, ⟨14, _⟩ => ⟨S1x4096, .i1⟩
  | .hbm, ⟨15, _⟩ => ⟨S_, .f32⟩
  | .hbm, ⟨16, _⟩ => ⟨S_, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .bf16⟩
  | .hbm, ⟨21, _⟩ => ⟨S16384x1, .f32⟩
  | .hbm, ⟨22, _⟩ => ⟨S16384x1, .f32⟩
  | .hbm, ⟨23, _⟩ => ⟨S16384, .f32⟩
  | .local _ .vmem, ⟨0, _⟩ => ⟨S512x512, .f32⟩
  | .local _ .vmem, ⟨1, _⟩ => ⟨S512x512, .f32⟩
  | .local _ .vmem, ⟨2, _⟩ => ⟨S4096x512, .bf16⟩
  | .local _ .vmem, ⟨3, _⟩ => ⟨S4096x512, .bf16⟩
  | .local _ .vmem, ⟨4, _⟩ => ⟨S1x4096, .bf16⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096x4096 : S_.BroadcastsInDim S4096x4096 (![] : Fin 0 → Fin S4096x4096.rank)
  bitsLt_bf16_f32 : FTy.bits .bf16 < FTy.bits .f32
  bcast_S_S1x4096 : S_.BroadcastsInDim S1x4096 (![] : Fin 0 → Fin S1x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  natLt_1_32 : 1 < 32
  shapeCasts_S16384x1_S16384 : S16384x1.ShapeCasts S16384
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x4096.size a
  hwx0_0 : ∀ i : grid0.Coords, EltTy.bits .f32 = 32 ∨ (Rect.block (s := S16384x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .bf16 = 32 ∨ (Rect.block (s := S1x4096) S1x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩
abbrev S16384x1 : Shape := ⟨2, ![16384, 1]⟩
abbrev S16384 : Shape := ⟨1, ![16384]⟩

abbrev nBuf : Space → Nat
  | .hbm => 55
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S1x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S16384x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .i1⟩
  | .hbm, ⟨25, _⟩ => ⟨S_, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S_, .f32⟩
  | .hbm, ⟨32, _⟩ => ⟨S1x4096, .f32⟩
  | .hbm, ⟨33, _⟩ => ⟨S1x4096, .i1⟩
  | .hbm, ⟨34, _⟩ => ⟨S_, .f32⟩
  | .hbm, ⟨35, _⟩ => ⟨S_, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S4096x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .i1⟩
  | .hbm, ⟨53, _⟩ => ⟨S16384x1, .f32⟩
  | .hbm, ⟨54, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v6 : Ref sig .tc := ⟨.hbm, 21, rfl⟩
abbrev main_cst_4 : Ref sig .tc := ⟨.hbm, 22, rfl⟩
abbrev main_v7 : Ref sig .tc := ⟨.hbm, 23, rfl⟩
abbrev main_v8 : Ref sig .tc := ⟨.hbm, 24, rfl⟩
abbrev main_cst_5 : Ref sig .tc := ⟨.hbm, 25, rfl⟩
abbrev main_cst_6 : Ref sig .tc := ⟨.hbm, 26, rfl⟩
abbrev main_call2_v0 : Ref sig .tc := ⟨.hbm, 27, rfl⟩
abbrev main_call2_v1 : Ref sig .tc := ⟨.hbm, 28, rfl⟩
abbrev main_v9 : Ref sig .tc := ⟨.hbm, 29, rfl⟩
abbrev main_v10 : Ref sig .tc := ⟨.hbm, 30, rfl⟩
abbrev main_cst_7 : Ref sig .tc := ⟨.hbm, 31, rfl⟩
abbrev main_v11 : Ref sig .tc := ⟨.hbm, 32, rfl⟩
abbrev main_v12 : Ref sig .tc := ⟨.hbm, 33, rfl⟩
abbrev main_cst_8 : Ref sig .tc := ⟨.hbm, 34, rfl⟩
abbrev main_cst_9 : Ref sig .tc := ⟨.hbm, 35, rfl⟩
abbrev main_call3_v0 : Ref sig .tc := ⟨.hbm, 36, rfl⟩
abbrev main_call3_v1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_10 : Ref sig .tc := ⟨.hbm, 44, rfl⟩
abbrev main_v19 : Ref sig .tc := ⟨.hbm, 45, rfl⟩
abbrev main_v20 : Ref sig .tc := ⟨.hbm, 46, rfl⟩
abbrev main_cst_11 : Ref sig .tc := ⟨.hbm, 47, rfl⟩
abbrev main_v21 : Ref sig .tc := ⟨.hbm, 48, rfl⟩
abbrev main_v22 : Ref sig .tc := ⟨.hbm, 49, rfl⟩
abbrev main_cst_12 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S_S16384x4096 : S_.BroadcastsInDim S16384x4096 (![] : Fin 0 → Fin S16384x4096.rank)
  bcast_S_S1x4096 : S_.BroadcastsInDim S1x4096 (![] : Fin 0 → Fin S1x4096.rank)
  transposes_S1x4096_S4096x1_1_0 : S1x4096.Transposes [1, 0] S4096x1
  bcast_S_S16384x1 : S_.BroadcastsInDim S16384x1 (![] : Fin 0 → Fin S16384x1.rank)
  shapeCasts_S16384x1_S16384 : S16384x1.ShapeCasts S16384
  dot_S16384x4096_S4096x4096_S16384x4096_1_0_0_1_n_n_wf : DotDims.WF S16384x4096 S4096x4096 S16384x4096 [1] [0] [0] [1] [] []
  dot_S16384x4096_S4096x1_S16384x1_1_0_0_1_n_n_wf : DotDims.WF S16384x4096 S4096x1 S16384x1 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf

class Facts : Prop extends Facts₀ where

variable [Facts]
-- ==== Proof.Spec.lean ====
/-
  The function both programs compute, on the extended reals, as one term of the three argument arrays.

  A two-layer network with binarised weights and a binarised hidden layer. Write pm v for +1 when 0 ≤ v and -1
  otherwise. For a batch row i:
    hidden i j = Σ_k X[i,k] · pm W1[j,k]            (4096 hidden units, 4096 inputs)
    logit  i   = Σ_j pm (hidden i j) · pm W2[0,j]
    prob   i   = 1 / (1 + e^(-logit i))
    label  i   = 1 if prob i ≥ 1/2, else 0
  The first result is the column of the probabilities, the second the vector of the labels.

  Besides the definitions, three facts about single elements: the comparison-and-select that both programs print is pm;
  clamping a value to [-1, 1] before taking pm changes nothing (the clamp keeps the sign, at the infinities too);
  and a one-bit comparison result read as an unsigned integer, or widened to 32 bits and read as a signed one, is the
  same 0 or 1.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- +1 at and above zero, -1 below. -/
def pm (v : EReal) : EReal := if 0 ≤ v then 1 else -1

/-- The threshold one half, as the single-precision pattern both programs print. -/
def half : EReal := Ideal.ofBits .f32 0x3F000000#32

/-- 1 when the value reaches one half, else 0. -/
def thr (p : EReal) : EReal := if half ≤ p then 1 else 0

/-- Hidden unit j of batch row i, before binarisation. -/
def hidden (X : (⟨2, ![16384, 4096]⟩ : Shape).Idx → EReal) (W1 : (⟨2, ![4096, 4096]⟩ : Shape).Idx → EReal)
    (i : Fin 16384) (j : Fin 4096) : EReal :=
  ∑ k : Fin 4096, X (ix2 i k) * pm (W1 (ix2 j k))

/-- The logit of batch row i. -/
def logit (X : (⟨2, ![16384, 4096]⟩ : Shape).Idx → EReal) (W1 : (⟨2, ![4096, 4096]⟩ : Shape).Idx → EReal)
    (W2 : (⟨2, ![1, 4096]⟩ : Shape).Idx → EReal) (i : Fin 16384) : EReal :=
  ∑ j : Fin 4096, pm (hidden X W1 i j) * pm (W2 (ix2 (0 : Fin 1) j))

/-- The probability of batch row i. -/
def prob (X : (⟨2, ![16384, 4096]⟩ : Shape).Idx → EReal) (W1 : (⟨2, ![4096, 4096]⟩ : Shape).Idx → EReal)
    (W2 : (⟨2, ![1, 4096]⟩ : Shape).Idx → EReal) (i : Fin 16384) : EReal :=
  Ideal.logistic (logit X W1 W2 i)

/-- The first result: the column of probabilities. -/
def out (X : (⟨2, ![16384, 4096]⟩ : Shape).Idx → EReal) (W1 : (⟨2, ![4096, 4096]⟩ : Shape).Idx → EReal)
    (W2 : (⟨2, ![1, 4096]⟩ : Shape).Idx → EReal) : (⟨2, ![16384, 1]⟩ : Shape).Idx → EReal :=
  fun i => prob X W1 W2 (i 0)

/-- The column of labels, before its unit axis is dropped. -/
def labels (X : (⟨2, ![16384, 4096]⟩ : Shape).Idx → EReal) (W1 : (⟨2, ![4096, 4096]⟩ : Shape).Idx → EReal)
    (W2 : (⟨2, ![1, 4096]⟩ : Shape).Idx → EReal) : (⟨2, ![16384, 1]⟩ : Shape).Idx → EReal :=
  fun i => thr (prob X W1 W2 (i 0))

/-- The second result: the vector of labels. -/
def yhat (X : (⟨2, ![16384, 4096]⟩ : Shape).Idx → EReal) (W1 : (⟨2, ![4096, 4096]⟩ : Shape).Idx → EReal)
    (W2 : (⟨2, ![1, 4096]⟩ : Shape).Idx → EReal) : (⟨1, ![16384]⟩ : Shape).Idx → EReal :=
  fun i => thr (prob X W1 W2 (i 0))

/-! ## Single elements -/

theorem neg_one_f32 : Ideal.ofBits .f32 0xBF800000#32 = -1 := IdealRules.sign_bit.ideal_negOnePat .f32

/-- "Select 1 where v ≥ 0, else -1", over the printed patterns of 0, 1 and -1, is pm. -/
theorem select_ge_zero (v : EReal) :
    Scalar.select (Ideal.cmp .oge v (Ideal.ofBits .f32 0x00000000#32)) (Ideal.ofBits .f32 0x3F800000#32)
      (Ideal.ofBits .f32 0xBF800000#32) = pm v := by
  rw [Ideal.ofBits_zero_f32, Ideal.ofBits_one_f32, neg_one_f32]
  unfold pm Scalar.select Ideal.cmp
  by_cases h : (0 : EReal) ≤ v
  · simp [h]
  · simp [h]

theorem neg_one_lt_zero : (-1 : EReal) < 0 := by
  have h : ((-1 : ℝ) : EReal) < ((0 : ℝ) : EReal) := EReal.coe_lt_coe_iff.mpr (by norm_num)
  simpa using h

/-- Clamping to [-1, 1] keeps the sign: 0 ≤ min 1 (max (-1) v) exactly when 0 ≤ v. -/
theorem pm_clamp (v : EReal) : pm (min 1 (max (-1) v)) = pm v := by
  unfold pm
  have e : (0 : EReal) ≤ min 1 (max (-1) v) ↔ 0 ≤ v := by
    rw [le_min_iff, le_max_iff]
    constructor
    · rintro ⟨_, h | h⟩
      · exact absurd h (not_le.mpr neg_one_lt_zero)
      · exact h
    · exact fun h => ⟨zero_le_one, Or.inr h⟩
  simp only [e]

/-- A one-bit comparison result, widened to 32 bits and read as a signed integer, is 1 or 0. -/
theorem thr_signed (p : EReal) :
    (((((Ideal.cmp .oge p half).setWidth 32).toInt : ℤ) : ℝ) : EReal) = thr p := by
  unfold thr Ideal.cmp
  by_cases h : half ≤ p
  · simp [h]
  · simp [h]

/-- The same bit read as an unsigned integer is the same 1 or 0. -/
theorem thr_unsigned (p : EReal) :
    ((((Ideal.cmp .oge p half).toNat : ℕ) : ℝ) : EReal) = thr p := by
  unfold thr Ideal.cmp
  by_cases h : half ≤ p
  · simp [h]
  · simp [h]

end Cert.Spec

end
-- ==== Proof.RefValue.lean ====
/-
  The reference program computes the specification.

  The reference is read one stage at a time, each stage at one index:
    the binarised first-layer weights, transposed      : at (k, j) it is pm W1[j,k];
    the first product                                  : at (i, j) it is hidden i j = Σ_k X[i,k] · pm W1[j,k];
    the clamp to [-1, 1] followed by the binarisation  : at (i, j) it is pm (hidden i j), the clamp keeping the sign;
    the binarised second-layer weights, transposed     : at (j, 0) it is pm W2[0,j];
    the second product                                 : at (i, 0) it is logit i = Σ_j pm (hidden i j) · pm W2[0,j];
    1 / (1 + e^(-logit i))                             : the logistic function of the logit, by its definition;
    the comparison with one half, read as 0 or 1       : thr of the probability;
    the reshape to a vector                            : reads the column at (i, 0).
  Every index is written with its literal coordinates, and each sum over the 4096 contracted positions is compared
  term by term, never expanded.
-/
import proofs.«154967_j10488310137541_2_alg».proof.Proof.ReadP
import proofs.«154967_j10488310137541_2_alg».proof.Proof.Spec
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx
open Cert.ReferenceIdeal Cert.ReferenceIdeal.ReadP

/-! ## The first layer's weights -/

/-- "1 where W1 ≥ 0, else -1", at any index, is pm of the weight there. -/
theorem v2_at (x1 : (⟨S4096x4096, .f32⟩ : BufTy).Contents (Elt Ideal)) (i : S4096x4096.Idx) :
    val_main_v2 (F := Ideal) x1 i = Cert.Spec.pm (x1 i) := by
  rw [val_main_v2_apply, val_main_v1_apply, val_main_v0_apply, val_main_cst_apply, val_main_call0_v0_apply,
    val_main_cst_0_apply, val_main_call0_v1_apply, val_main_cst_1_apply]
  exact Cert.Spec.select_ge_zero (x1 i)

/-- The transposed binarised weights at (k, j): pm W1[j,k]. -/
theorem v4_at (x1 : (⟨S4096x4096, .f32⟩ : BufTy).Contents (Elt Ideal)) (k j : Fin 4096) :
    val_main_v4 (F := Ideal) x1 (ix2 k j) = Cert.Spec.pm (x1 (ix2 j k)) := by
  have e : idx_main_v4 (ix2 k j) = ix2 j k :=
    funext fun a => Fin.ext (by match a with | ⟨0, _⟩ => rfl | ⟨1, _⟩ => rfl)
  rw [val_main_v4_apply, val_main_v3_apply, v2_at, e]

/-! ## The first product -/

/-- The first product at (i, j) is the hidden unit j of row i. -/
theorem v5_at (x0 : (⟨S16384x4096, .f32⟩ : BufTy).Contents (Elt Ideal))
    (x1 : (⟨S4096x4096, .f32⟩ : BufTy).Contents (Elt Ideal)) (p : Fin 16384) (j : Fin 4096) :
    val_main_v5 (F := Ideal) x0 x1 (ix2 p j) = Cert.Spec.hidden x0 x1 p j := by
  rw [val_main_v5_apply]
  unfold Cert.Spec.hidden
  refine Finset.sum_congr rfl fun k _ => ?_
  have el : lidx_main_v5 (ix2 p j) k = ix2 p k :=
    funext fun a => Fin.ext (by match a with | ⟨0, _⟩ => rfl | ⟨1, _⟩ => rfl)
  have er : ridx_main_v5 (ix2 p j) k = ix2 k j :=
    funext fun a => Fin.ext (by match a with | ⟨0, _⟩ => rfl | ⟨1, _⟩ => rfl)
  rw [el, er, v4_at]

/-! ## The clamp and the binarisation of the hidden layer -/

/-- The clamped, then binarised, hidden layer at (i, j): pm (hidden i j). The clamp to [-1, 1] keeps the sign. -/
theorem v10_at (x0 : (⟨S16384x4096, .f32⟩ : BufTy).Contents (Elt Ideal))
    (x1 : (⟨S4096x4096, .f32⟩ : BufTy).Contents (Elt Ideal)) (p : Fin 16384) (j : Fin 4096) :
    val_main_v10 (F := Ideal) x0 x1 (ix2 p j) = Cert.Spec.pm (Cert.Spec.hidden x0 x1 p j) := by
  rw [val_main_v10_apply, val_main_v9_apply, val_main_v8_apply, val_main_v6_apply, val_main_call1_v4_apply,
    val_main_call1_v3_apply, val_main_cst_3_apply, val_main_call1_v2_apply, val_main_call1_v1_apply,
    val_main_call1_v0_apply, val_main_cst_2_apply, val_main_v7_apply, val_main_cst_4_apply,
    val_main_call2_v0_apply, val_main_cst_5_apply, val_main_call2_v1_apply, val_main_cst_6_apply, v5_at]
  calc _ = Cert.Spec.pm (min (Ideal.ofBits .f32 0x3F800000#32)
              (max (Ideal.ofBits .f32 0xBF800000#32) (Cert.Spec.hidden x0 x1 p j))) :=
          Cert.Spec.select_ge_zero _
    _ = _ := by rw [Ideal.ofBits_one_f32, Cert.Spec.neg_one_f32, Cert.Spec.pm_clamp]

/-! ## The second layer's weights -/

/-- The transposed binarised second-layer weights at (j, 0): pm W2[0,j]. -/
theorem v15_at (x2 : (⟨S1x4096, .f32⟩ : BufTy).Contents (Elt Ideal)) (j : Fin 4096) (q : Fin 1) :
    val_main_v15 (F := Ideal) x2 (ix2 j q) = Cert.Spec.pm (x2 (ix2 q j)) := by
  have e : idx_main_v15 (ix2 j q) = ix2 q j :=
    funext fun a => Fin.ext (by match a with | ⟨0, _⟩ => rfl | ⟨1, _⟩ => rfl)
  rw [val_main_v15_apply, val_main_v14_apply, val_main_v13_apply, val_main_v12_apply, val_main_v11_apply,
    val_main_cst_7_apply, val_main_call3_v0_apply, val_main_cst_8_apply, val_main_call3_v1_apply,
    val_main_cst_9_apply, e]
  exact Cert.Spec.select_ge_zero _

/-! ## The second product -/

/-- The second product at (i, 0) is the logit of row i. -/
theorem v16_at (x0 : (⟨S16384x4096, .f32⟩ : BufTy).Contents (Elt Ideal))
    (x1 : (⟨S4096x4096, .f32⟩ : BufTy).Contents (Elt Ideal))
    (x2 : (⟨S1x4096, .f32⟩ : BufTy).Contents (Elt Ideal)) (p : Fin 16384) (q : Fin 1) :
    val_main_v16 (F := Ideal) x0 x1 x2 (ix2 p q) = Cert.Spec.logit x0 x1 x2 p := by
  obtain rfl : q = 0 := Subsingleton.elim _ _
  rw [val_main_v16_apply]
  unfold Cert.Spec.logit
  refine Finset.sum_congr rfl fun k _ => ?_
  have el : lidx_main_v16 (ix2 p (0 : Fin 1)) k = ix2 p k :=
    funext fun a => Fin.ext (by match a with | ⟨0, _⟩ => rfl | ⟨1, _⟩ => rfl)
  have er : ridx_main_v16 (ix2 p (0 : Fin 1)) k = ix2 k (0 : Fin 1) :=
    funext fun a => Fin.ext (by match a with | ⟨0, _⟩ => rfl | ⟨1, _⟩ => rfl)
  rw [el, er, v10_at, v15_at]

/-! ## The probability -/

/-- 1 / (1 + e^(-logit)) at (i, 0) is the logistic function of the logit: the probability of row i. -/
theorem v22_at (x0 : (⟨S16384x4096, .f32⟩ : BufTy).Contents (Elt Ideal))
    (x1 : (⟨S4096x4096, .f32⟩ : BufTy).Contents (Elt Ideal))
    (x2 : (⟨S1x4096, .f32⟩ : BufTy).Contents (Elt Ideal)) (p : Fin 16384) (q : Fin 1) :
    val_main_v22 (F := Ideal) x0 x1 x2 (ix2 p q) = Cert.Spec.prob x0 x1 x2 p := by
  rw [val_main_v22_apply, val_main_v21_apply, val_main_cst_11_apply, val_main_v20_apply, val_main_v19_apply,
    val_main_cst_10_apply, val_main_v18_apply, val_main_v17_apply, v16_at]
  rw [Ideal.hostDivf_def, Ideal.addf_def, Ideal.hostUnary_exp_def, Ideal.hostNegf_def, Ideal.negf_def,
    Ideal.ofBits_def, Ideal.ofBits_one_f32]
  rfl

/-- The first result of the reference is the column of probabilities. -/
theorem ref_out (x0 : (⟨S16384x4096, .f32⟩ : BufTy).Contents (Elt Ideal))
    (x1 : (⟨S4096x4096, .f32⟩ : BufTy).Contents (Elt Ideal))
    (x2 : (⟨S1x4096, .f32⟩ : BufTy).Contents (Elt Ideal)) :
    val_main_v22 (F := Ideal) x0 x1 x2 = Cert.Spec.out x0 x1 x2 := by
  funext i
  obtain ⟨p, q, rfl⟩ : ∃ (p : Fin 16384) (q : Fin 1), i = ix2 p q := ⟨i 0, i 1, eq_ix2 i⟩
  rw [v22_at]
  rfl

/-! ## The labels -/

/-- The label vector at i: the comparison of the probability with one half, read as 0 or 1. -/
theorem v26_at (x0 : (⟨S16384x4096, .f32⟩ : BufTy).Contents (Elt Ideal))
    (x1 : (⟨S4096x4096, .f32⟩ : BufTy).Contents (Elt Ideal))
    (x2 : (⟨S1x4096, .f32⟩ : BufTy).Contents (Elt Ideal)) (p : Fin 16384) :
    val_main_v26 (F := Ideal) x0 x1 x2 (ix1 p) = Cert.Spec.thr (Cert.Spec.prob x0 x1 x2 p) := by
  have e : idx_main_v26 (ix1 p) = ix2 p (0 : Fin 1) :=
    funext fun a => Fin.ext (by match a with | ⟨0, _⟩ => exact Nat.div_one _ | ⟨1, _⟩ => rfl)
  rw [val_main_v26_apply, val_main_v25_apply, val_main_v24_apply, val_main_v23_apply, val_main_cst_12_apply, e,
    v22_at]
  exact Cert.Spec.thr_unsigned _

/-- The second result of the reference is the vector of labels. -/
theorem ref_yhat (x0 : (⟨S16384x4096, .f32⟩ : BufTy).Contents (Elt Ideal))
    (x1 : (⟨S4096x4096, .f32⟩ : BufTy).Contents (Elt Ideal))
    (x2 : (⟨S1x4096, .f32⟩ : BufTy).Contents (Elt Ideal)) :
    val_main_v26 (F := Ideal) x0 x1 x2 = Cert.Spec.yhat x0 x1 x2 := by
  funext i
  obtain ⟨p, rfl⟩ : ∃ (p : Fin 16384), i = ix1 p := ⟨i 0, eq_ix1 i⟩
  rw [v26_at]
  rfl

end Cert.ReferenceIdeal.RefValue

end
-- ==== Proof.Pieces.lean ====
/-
  What one run of the kernel body leaves behind, case by case, as values.

  The body keeps a [512, 4096] accumulator across the eight steps of the contraction axis. Writing
  step x w acc = acc + x · wᵀ for the accumulation of one [512, 512] block of the input against one [4096, 512] block
  of the binarised first-layer weights:
    * at the first step the accumulator is reset and then accumulated into: it ends at  step x w 0;
    * at a middle step it ends at  step x w acc  for the contents acc the step before left;
    * at the last step it ends at  step x w acc  too, and the two output blocks are written from it: the probabilities
      head (step x w acc) w2  and the labels  cut (step x w acc) w2, for the [1, 4096] binarised second-layer weights w2.
  Each store covers its whole buffer and each load reads a whole buffer, so what a buffer holds afterwards is the last
  stored value, with every load replaced by the contents loaded. Stated for any float instance.
-/
import proofs.«154967_j10488310137541_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

/-- The offsets of a whole-buffer access are all zero. -/
theorem hz : (![0, 0] : Fin 2 → Nat) = fun _ => 0 := funext fun a => by fin_cases a <;> rfl

/-- A middle step leaves the accumulator at  acc + x · wᵀ. -/
theorem scratch_B (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S1x4096 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x4096 .f32) (harg7 : arg7.IsWhole) (hc0 : ¬cond0_0 i) (hc1 : ¬cond0_1 i)
    (x0 : Vec F S512x512 .f32) (x1 : Vec F S4096x512 .bf16) (x2 : Vec F S1x4096 .bf16) (xs0 : Vec F S512x4096 .f32) :
    sout0_B_0 c i arg2 harg2 arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  rw [View.canon_unit_zero hz]
  simp only [View.readAt_eq_ld, harg2.read_unread, harg3.read_unread, harg4.read_unread, harg7.read_unread,
    View.ld_unit_zero (S := S512x512) hz, View.ld_unit_zero (S := S4096x512) hz, View.ld_unit_zero (S := S1x4096) hz,
    View.ld_unit_zero (S := S512x4096) hz]

/-- The first step resets the accumulator, reads the zeros back, and leaves  0 + x · wᵀ. -/
theorem scratch_A (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S1x4096 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x4096 .f32) (harg7 : arg7.IsWhole) (hc0 : cond0_0 i) (hc1 : ¬cond0_1 i)
    (x0 : Vec F S512x512 .f32) (x1 : Vec F S4096x512 .bf16) (x2 : Vec F S1x4096 .bf16) :
    sout0_A_0 c i arg2 harg2 arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S512x4096) hz, View.readCov_unit_zero (S := S512x4096) _ hz]
  simp only [View.readAt_eq_ld, harg2.read_unread, harg3.read_unread, harg4.read_unread, harg7.read_unread,
    View.ld_unit_zero (S := S512x512) hz, View.ld_unit_zero (S := S4096x512) hz, View.ld_unit_zero (S := S1x4096) hz,
    View.ld_unit_zero (S := S512x4096) hz]

/-- The last step leaves the accumulator at  acc + x · wᵀ  as a middle step does. -/
theorem scratch_C (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S1x4096 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x4096 .f32) (harg7 : arg7.IsWhole) (hc0 : ¬cond0_0 i) (hc1 : cond0_1 i)
    (x0 : Vec F S512x512 .f32) (x1 : Vec F S4096x512 .bf16) (x2 : Vec F S1x4096 .bf16) (xs0 : Vec F S512x4096 .f32) :
    sout0_C_0 c i arg2 harg2 arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread,
    View.ld_unit_zero (S := S512x512) hz, View.ld_unit_zero (S := S4096x512) hz, View.ld_unit_zero (S := S1x4096) hz,
    View.ld_unit_zero (S := S512x4096) hz]

/-- The last step writes the probabilities' block from the finished accumulator and the second-layer weights. -/
theorem out3_C (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S1x4096 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x4096 .f32) (harg7 : arg7.IsWhole) (hc0 : ¬cond0_0 i) (hc1 : cond0_1 i)
    (x0 : Vec F S512x512 .f32) (x1 : Vec F S4096x512 .bf16) (x2 : Vec F S1x4096 .bf16) (xs0 : Vec F S512x4096 .f32) :
    out0_C_3 c i arg2 harg2 arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S512x4096) _ hz]
  simp only [View.readAt_eq_ld, harg2.read_unread, harg3.read_unread, harg4.read_unread, harg7.read_unread,
    View.ld_unit_zero (S := S512x512) hz, View.ld_unit_zero (S := S4096x512) hz, View.ld_unit_zero (S := S1x4096) hz,
    View.ld_unit_zero (S := S512x4096) hz]

/-- The last step writes the labels' block likewise. -/
theorem out4_C (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S1x4096 .bf16) (harg4 : arg4.IsWhole) (arg5 : Memref sig .tc .vmem S512x1 .f32) (harg5 : arg5.IsWhole) (arg6 : Memref sig .tc .vmem S512x1 .f32) (harg6 : arg6.IsWhole) (arg7 : Memref sig .tc .vmem S512x4096 .f32) (harg7 : arg7.IsWhole) (hc0 : ¬cond0_0 i) (hc1 : cond0_1 i)
    (x0 : Vec F S512x512 .f32) (x1 : Vec F S4096x512 .bf16) (x2 : Vec F S1x4096 .bf16) (xs0 : Vec F S512x4096 .f32) :
    out0_C_4 c i arg2 harg2 arg3 harg3 arg4 harg4 arg5 harg5 arg6 harg6 arg7 harg7 hc0 hc1 x0 x1 x2 xs0 = k0_pay4 (k0_pay2 x0 x1 xs0) x2 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S512x4096) _ hz]
  simp only [View.readAt_eq_ld, harg2.read_unread, harg3.read_unread, harg4.read_unread, harg7.read_unread,
    View.ld_unit_zero (S := S512x512) hz, View.ld_unit_zero (S := S4096x512) hz, View.ld_unit_zero (S := S1x4096) hz,
    View.ld_unit_zero (S := S512x4096) hz]

end Cert.KernelIdeal.Pieces

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.Payloads.lean ====
/-
  The kernel body's arithmetic, read at one index on the extended reals.

    * the reset value is 0 everywhere;
    * one accumulation step at (r, j) is  acc[r, j] + Σ_k x[r, k] · w[j, k]  (a matrix times a transposed matrix into a zero
      accumulator, then added to the running value; the change of float format of x is the identity here);
    * the probabilities' block at (r, 0) is the logistic function of  Σ_j pm (acc[r, j]) · w2[0, j]  (a comparison with
      zero selecting 1 or -1, a row of second-layer weights broadcast over the rows, a sum along the lanes that keeps
      the reduced axis as a unit axis);
    * the labels' block at (r, 0) is the threshold at one half of that probability.
-/
import proofs.«154967_j10488310137541_2_alg».proof.Proof.Gen.KernelIdeal.Skeleton
import proofs.«154967_j10488310137541_2_alg».proof.Proof.Spec
import proofs.«154967_j10488310137541_2_alg».proof.Proof.LibMatmulT
import proofs.«154967_j10488310137541_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payloads

open Cert.KernelIdeal Cert.KernelIdeal.Gen Cert.Spec
open Idealize.ShloMosaic Idealize.ShloMosaic.ValueIdx

/-- The reset value is zero at every index. -/
theorem pay1_apply (r : Fin 512) (j : Fin 4096) : k0_pay1 (F := Ideal) (ix2 r j) = 0 := by
  unfold k0_pay1
  rw [shapeCast_self]
  show Ideal.ofBits .f32 0x00000000#32 = 0
  exact Ideal.ofBits_zero_f32

/-- One accumulation step at (r, j): the running value plus the row of x against the row of w. -/
theorem pay2_apply (x : FVec Ideal S512x512 .f32) (w : FVec Ideal S4096x512 .bf16) (acc : FVec Ideal S512x4096 .f32)
    (r : Fin 512) (j : Fin 4096) :
    k0_pay2 (F := Ideal) x w acc (ix2 r j) = acc (ix2 r j) + ∑ k : Fin 512, x (ix2 r k) * w (ix2 j k) := by
  unfold k0_pay2
  rw [shapeCast_self, shapeCast_self]
  show acc (ix2 r j) + _ = _
  refine congrArg (acc (ix2 r j) + ·) ?_
  exact MatmulT.matmul_zero_apply _ none (truncf .bf16 x _) w r j

/-- The row sum the probabilities are the logistic function of. -/
def rowLogit (acc : FVec Ideal S512x4096 .f32) (w2 : FVec Ideal S1x4096 .bf16) (r : Fin 512) : EReal :=
  ∑ j : Fin 4096, pm (acc (ix2 r j)) * w2 (ix2 (0 : Fin 1) j)

/-- The lane sum of the kernel body, at row r. -/
theorem lane_sum (v : FVec Ideal S512x4096 .f32) (h : S512x4096.Reduces [1] S512) (hφ : FKind.Formats .f32)
    (hacc : (0x00000000#32 : BitVec 32) = 0x00000000#32) (r : Fin 512) :
    multiReduction .add [1] S512 v 0x00000000#32 h hφ hacc (ix1 r) = ∑ j : Fin 4096, v (ix2 r j) := by
  refine (Ideal.multiReduction_add_single v 0x00000000#32 h hφ hacc (ix1 r)).trans ?_
  refine Finset.sum_congr rfl fun j _ => congrArg v ?_
  funext a
  apply Fin.ext
  match a with
  | ⟨0, _⟩ => rfl
  | ⟨1, _⟩ => rfl

/-- The probabilities' block at (r, 0). -/
theorem pay3_apply (acc : FVec Ideal S512x4096 .f32) (w2 : FVec Ideal S1x4096 .bf16) (r : Fin 512) (u : Fin 1) :
    k0_pay3 (F := Ideal) acc w2 (ix2 r u) = Ideal.logistic (rowLogit acc w2 r) := by
  unfold k0_pay3
  dsimp only
  show Ideal.logistic (shapeCast S512x1 _ _ (ix2 r u)) = _
  refine congrArg Ideal.logistic ?_
  rw [Keepdims.shapeCast_a_a1_apply, lane_sum]
  unfold rowLogit
  refine Finset.sum_congr rfl fun j _ => ?_
  rw [mulf_apply, shapeCast_self]
  refine congrArg₂ (· * ·) ?_ ?_
  · exact select_ge_zero (acc (ix2 r j))
  · exact ValueIdx.broadcastTo_1b_ab_apply (extf .f32 w2 _) _ r j

/-- The labels' block at (r, 0): the threshold of the probability. -/
theorem pay4_apply (acc : FVec Ideal S512x4096 .f32) (w2 : FVec Ideal S1x4096 .bf16) (r : Fin 512) (u : Fin 1) :
    k0_pay4 (F := Ideal) acc w2 (ix2 r u) = thr (k0_pay3 (F := Ideal) acc w2 (ix2 r u)) := by
  unfold k0_pay4
  exact thr_signed (k0_pay3 (F := Ideal) acc w2 (ix2 r u))

end Cert.KernelIdeal.Payloads

end
-- ==== Proof.Blocks.lean ====
/-
  The blocks the pipeline hands the kernel body, as entries of the arrays.

  The grid has 32 × 8 points; point t is row tile t / 8 and contraction step t % 8. At point t
    * the input block is rows 512·(t/8) … +511 and columns 512·(t%8) … +511 of the input X;
    * the first-layer block is all 4096 rows and columns 512·(t%8) … +511 of the binarised first-layer weights;
    * the second-layer block is the whole [1, 4096] array of binarised second-layer weights;
    * each output block is rows 512·(t/8) … +511 of its [16384, 1] array.
  An element of a block sits at  block index × block size + its coordinate inside the block  along each axis.
-/
import proofs.«154967_j10488310137541_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Where each window's block sits at a grid point: the printed index maps, decided once over the 256 points. -/
theorem idx0 : ∀ t : Fin cfg0.N, win0_0.index t (0 : Fin 2) = t.val / 8 ∧ win0_0.index t (1 : Fin 2) = t.val % 8 :=
  (by decide +kernel : ∀ t : Fin grid0.N, _)
theorem idx1 : ∀ t : Fin cfg0.N, win0_1.index t (0 : Fin 2) = 0 ∧ win0_1.index t (1 : Fin 2) = t.val % 8 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)

/-- The input block at point t, entry (r, k): the input at row 512·(t/8) + r, column 512·(t%8) + k. -/
theorem blk0_at (c : Dev nD) (t : Fin cfg0.N) (r k : Fin 512) (R : Fin 16384) (K : Fin 4096)
    (hR : R.val = 512 * (t.val / 8) + r.val) (hK : K.val = 512 * (t.val % 8) + k.val) :
    (iblk m c 0 t : Vec F S512x512 .f32) (ix2 r k) = V m c main_arg0 (ix2 R K) := by
  unfold iblk
  rw [View.read_apply]
  show V m c main_arg0 _ = V m c main_arg0 (ix2 R K)
  refine congrArg _ (funext fun a => Fin.ext ?_)
  match a with
  | ⟨0, _⟩ => show win0_0.index t 0 * 512 + 1 * r.val = R.val; rw [(idx0 t).1, hR]; omega
  | ⟨1, _⟩ => show win0_0.index t 1 * 512 + 1 * k.val = K.val; rw [(idx0 t).2, hK]; omega

/-- The first-layer block at point t, entry (j, k): the binarised weights at row j, column 512·(t%8) + k. -/
theorem blk1_at (c : Dev nD) (t : Fin cfg0.N) (j : Fin 4096) (k : Fin 512) (K : Fin 4096)
    (hK : K.val = 512 * (t.val % 8) + k.val) :
    (iblk m c 1 t : Vec F S4096x512 .bf16) (ix2 j k) = V m c main_v3 (ix2 j K) := by
  unfold iblk
  rw [View.read_apply]
  show V m c main_v3 _ = V m c main_v3 (ix2 j K)
  refine congrArg _ (funext fun a => Fin.ext ?_)
  match a with
  | ⟨0, _⟩ => show win0_1.index t 0 * 4096 + 1 * j.val = j.val; rw [(idx1 t).1]; omega
  | ⟨1, _⟩ => show win0_1.index t 1 * 512 + 1 * k.val = K.val; rw [(idx1 t).2, hK]; omega

/-- The second-layer block at every point is the whole array. -/
theorem blk2_at (c : Dev nD) (t : Fin cfg0.N) (q : Fin 1) (j : Fin 4096) :
    (iblk m c 2 t : Vec F S1x4096 .bf16) (ix2 q j) = V m c main_v7 (ix2 q j) := by
  unfold iblk
  rw [View.read_apply]
  show V m c main_v7 _ = V m c main_v7 (ix2 q j)
  refine congrArg _ (funext fun a => Fin.ext ?_)
  match a with
  | ⟨0, _⟩ => show win0_2.index t 0 * 1 + 1 * q.val = q.val; rw [(idx2 t).1]; omega
  | ⟨1, _⟩ => show win0_2.index t 1 * 4096 + 1 * j.val = j.val; rw [(idx2 t).2]; omega

end Cert.KernelIdeal.Blocks

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.Fold.lean ====
/-
  The accumulator after the last contraction step of a row tile is the whole first product.

  Along a row tile q the kernel visits the eight contraction steps s = 0 … 7 at grid points 8q + s. The accumulator is
  reset and accumulated into at s = 0 and accumulated into at every later step, so after step s it holds, at (r, j),
      0 + Σ_{s' ≤ s} Σ_{k < 512} X[512q + r, 512s' + k] · B[j, 512s' + k]
  for the input X and the binarised first-layer weights B as the region finds them. Eight runs of 512 consecutive columns
  are the 4096 columns, and a finite sum on the extended reals does not depend on how it is cut up (addition there is
  commutative and associative, infinities included), so after the last step the entry is  Σ_{k < 4096} X[512q + r, k] · B[j, k].
-/
import proofs.«154967_j10488310137541_2_alg».proof.Proof.Pieces
import proofs.«154967_j10488310137541_2_alg».proof.Proof.Payloads
import proofs.«154967_j10488310137541_2_alg».proof.Proof.Blocks
import proofs.«154967_j10488310137541_2_alg».proof.Proof.LibSumRegroup
import Idealize.ShloMosaic.Lib.Pipeline.Value
import Idealize.ShloMosaic.Lib.ValueIdx

noncomputable section

namespace Cert.KernelIdeal.Fold

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- A [a, b] array of extended reals read at natural-number coordinates, zero outside the array. -/
def ext {a b : ℕ} (X : (⟨2, ![a, b]⟩ : Shape).Idx → EReal) (p q : ℕ) : EReal :=
  if h : p < a ∧ q < b then X (ix2 ⟨p, h.1⟩ ⟨q, h.2⟩) else 0

theorem ext_eq {a b : ℕ} (X : (⟨2, ![a, b]⟩ : Shape).Idx → EReal) (p : Fin a) (q : Fin b) (p' q' : ℕ)
    (hp : p.val = p') (hq : q.val = q') : X (ix2 p q) = ext X p' q' := by
  subst hp; subst hq
  unfold ext
  rw [dif_pos ⟨p.isLt, q.isLt⟩]

/-- The input and the binarised first-layer weights as the region finds them, as arrays of extended reals. -/
abbrev Xin (c : Dev nD) : S16384x4096.Idx → EReal := V m c main_arg0
abbrev W1b (c : Dev nD) : S4096x4096.Idx → EReal := V m c main_v3

/-- What the accumulator holds after grid point n. -/
def acc (c : Dev nD) (n : ℕ) (h : n < cfg0.N) : FVec Ideal S512x4096 .f32 := (outsAt0 m c n h).2.2

theorem acc_congr (c : Dev nD) (n n' : ℕ) (e : n = n') (h : n < cfg0.N) (h' : n' < cfg0.N) :
    acc m c n h = acc m c n' h' := by subst e; rfl

/-- At the first step of a row tile: the reset value, accumulated into once. -/
theorem acc_first_at (c : Dev nD) (t : Fin cfg0.N) (h0 : t.val % 8 = 0) :
    acc m c t.val t.isLt = k0_pay2 (iblk m c 0 t) (iblk m c 1 t) (k0_pay1 (F := Ideal)) := by
  unfold acc
  have h1 : ¬t.val % 8 = 7 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    ((hcond0_0 t).mpr h0) (fun hh => h1 ((hcond0_1 t).mp hh)) (iblk m c 0 t) (iblk m c 1 t) (iblk m c 2 t)

/-- At every later step: the contents the step before left, accumulated into once. -/
theorem acc_step_at (c : Dev nD) (t : Fin cfg0.N) (hne : ¬t.val % 8 = 0) :
    acc m c t.val t.isLt
      = k0_pay2 (iblk m c 0 t) (iblk m c 1 t) (acc m c (t.val - 1) (Nat.lt_of_le_of_lt (Nat.sub_le _ _) t.isLt)) := by
  unfold acc
  by_cases h7 : t.val % 8 = 7
  · rw [outsAt0_C m c t hne h7]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => hne ((hcond0_0 t).mp hh)) ((hcond0_1 t).mpr h7) (iblk m c 0 t) (iblk m c 1 t) (iblk m c 2 t)
      (outsAt0 m c (t.val - 1) (Nat.lt_of_le_of_lt (Nat.sub_le _ _) t.isLt)).2.2
  · rw [outsAt0_B m c t hne h7]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => hne ((hcond0_0 t).mp hh)) (fun hh => h7 ((hcond0_1 t).mp hh)) (iblk m c 0 t) (iblk m c 1 t) (iblk m c 2 t)
      (outsAt0 m c (t.val - 1) (Nat.lt_of_le_of_lt (Nat.sub_le _ _) t.isLt)).2.2

/-- The same two facts indexed by the point's number. -/
theorem acc_first (c : Dev nD) (n : ℕ) (h : n < cfg0.N) (h0 : n % 8 = 0) :
    acc m c n h = k0_pay2 (iblk m c 0 ⟨n, h⟩) (iblk m c 1 ⟨n, h⟩) (k0_pay1 (F := Ideal)) :=
  acc_first_at m c ⟨n, h⟩ h0

theorem acc_step (c : Dev nD) (n : ℕ) (h : n + 1 < cfg0.N) (hne : ¬(n + 1) % 8 = 0) :
    acc m c (n + 1) h
      = k0_pay2 (iblk m c 0 ⟨n + 1, h⟩) (iblk m c 1 ⟨n + 1, h⟩) (acc m c n (Nat.lt_of_succ_lt h)) :=
  (acc_step_at m c ⟨n + 1, h⟩ hne).trans
    (congrArg (k0_pay2 (F := Ideal) (iblk m c 0 ⟨n + 1, h⟩) (iblk m c 1 ⟨n + 1, h⟩))
      (acc_congr m c (n + 1 - 1) n (Nat.add_sub_cancel n 1) _ _))

/-- The addend of grid point n at an accumulator index: the input block's row against the weight block's row, over
    natural-number coordinates. -/
def addend (c : Dev nD) (n : ℕ) (i : S512x4096.Idx) : EReal :=
  ∑ k ∈ Finset.range 512,
    ext (Xin m c) (512 * (n / 8) + (i 0).val) (n % 8 * 512 + k) * ext (W1b m c) (i 1).val (n % 8 * 512 + k)

/-- One accumulation step at grid point t adds that point's addend. -/
theorem step_at (c : Dev nD) (t : Fin cfg0.N) (a : FVec Ideal S512x4096 .f32) (i : S512x4096.Idx) :
    k0_pay2 (F := Ideal) (iblk m c 0 t) (iblk m c 1 t) a i = a i + addend m c t.val i := by
  have hN : t.val < 256 := lt_of_lt_of_eq t.isLt (show cfg0.N = 256 from N_0)
  obtain ⟨r, j, rfl⟩ : ∃ (r : Fin 512) (j : Fin 4096), i = ix2 r j := ⟨i 0, i 1, eq_ix2 i⟩
  refine (Payloads.pay2_apply (iblk m c 0 t) (iblk m c 1 t) a r j).trans ?_
  refine congrArg (a (ix2 r j) + ·) ?_
  unfold addend
  rw [Finset.sum_range]
  refine Finset.sum_congr rfl fun k _ => ?_
  have hr : r.val < 512 := r.isLt
  have hk : k.val < 512 := k.isLt
  have hR : 512 * (t.val / 8) + r.val < 16384 := by omega
  have hK : 512 * (t.val % 8) + k.val < 4096 := by omega
  rw [Blocks.blk0_at m c t r k ⟨512 * (t.val / 8) + r.val, hR⟩ ⟨512 * (t.val % 8) + k.val, hK⟩ rfl rfl,
    Blocks.blk1_at m c t j k ⟨512 * (t.val % 8) + k.val, hK⟩ rfl]
  refine congrArg₂ (· * ·) (ext_eq _ _ _ _ _ rfl ?_) (ext_eq _ _ _ _ _ rfl ?_)
  · show 512 * (t.val % 8) + k.val = t.val % 8 * 512 + k.val; omega
  · show 512 * (t.val % 8) + k.val = t.val % 8 * 512 + k.val; omega

/-- After the last step of row tile q the accumulator at (r, j) is the whole sum over the 4096 columns. -/
theorem acc_last (c : Dev nD) (q : ℕ) (hq : q < 32) (h : 8 * q + 7 < cfg0.N) (r : Fin 512) (j : Fin 4096)
    (R : Fin 16384) (hR : R.val = 512 * q + r.val) :
    acc m c (8 * q + 7) h (ix2 r j) = ∑ k : Fin 4096, Xin m c (ix2 R k) * W1b m c (ix2 j k) := by
  have hfold := Pipeline.eq_accAt (N := cfg0.N) (acc m c) 8
    (fun n h => k0_pay2 (iblk m c 0 ⟨n, h⟩) (iblk m c 1 ⟨n, h⟩) (k0_pay1 (F := Ideal)))
    (fun n h a => k0_pay2 (iblk m c 0 ⟨n, h⟩) (iblk m c 1 ⟨n, h⟩) a)
    (fun n h h0 => acc_first m c n h h0) (fun n h hne => acc_step m c n h hne) q 7 (by norm_num) h
  rw [hfold]
  have hsum := Pipeline.accAt_add_apply (N := cfg0.N)
    (fun n h => k0_pay2 (iblk m c 0 ⟨n, h⟩) (iblk m c 1 ⟨n, h⟩) (k0_pay1 (F := Ideal)))
    (fun n h a => k0_pay2 (iblk m c 0 ⟨n, h⟩) (iblk m c 1 ⟨n, h⟩) a)
    (fun _ => (0 : EReal)) (addend m c) (8 * q) 7
    (fun hb i => by
      refine (step_at m c ⟨8 * q, hb⟩ (k0_pay1 (F := Ideal)) i).trans ?_
      refine congrArg (· + addend m c (8 * q) i) ?_
      obtain ⟨r', j', rfl⟩ : ∃ (r' : Fin 512) (j' : Fin 4096), i = ix2 r' j' := ⟨i 0, i 1, eq_ix2 i⟩
      exact Payloads.pay1_apply r' j')
    (fun n hn a i _ _ => step_at m c ⟨n, hn⟩ a i) 7 (le_refl 7) h (ix2 r j)
  rw [hsum, zero_add]
  -- eight runs of 512 columns are the 4096 columns
  have hrun : ∀ s ∈ Finset.range 8, addend m c (8 * q + s) (ix2 r j)
      = ∑ k ∈ Finset.range 512, (fun x => ext (Xin m c) (512 * q + r.val) x * ext (W1b m c) j.val x) (s * 512 + k) := by
    intro s hs
    have hs8 : s < 8 := Finset.mem_range.mp hs
    unfold addend
    have e1 : (8 * q + s) / 8 = q := by omega
    have e2 : (8 * q + s) % 8 = s := by omega
    rw [e1, e2]
  rw [Finset.sum_congr rfl hrun, ← SumLaw.sum_range_mul (fun x => ext (Xin m c) (512 * q + r.val) x * ext (W1b m c) j.val x) 8 512,
    Finset.sum_range]
  refine Finset.sum_congr rfl fun k _ => ?_
  exact (congrArg₂ (· * ·) (ext_eq _ R k _ _ hR rfl) (ext_eq _ j k _ _ rfl rfl)).symm

end Cert.KernelIdeal.Fold

end
-- ==== Proof.HostPrefix.lean ====
/-
  What the two weight arrays hold when the region is entered.

  Before the region the program binarises each weight array and narrows it to the 16-bit format; on the extended reals
  the narrowing is the identity. Write pm v for +1 when 0 ≤ v and -1 otherwise. Entry by entry:
    the first-layer array at (j, k) holds pm W1[j,k]      (4096 × 4096 entries);
    the second-layer array at (0, j) holds pm W2[0,j]     (1 × 4096 entries).
  Each array is first written as one term of the argument it is computed from: the comparison with zero, the selection
  between the constants 1 and -1 spread over the whole shape, and the narrowing. That term is then read at an index: a
  constant spread over a shape reads the constant, the comparison and the selection act entry by entry, and
  "1 where v ≥ 0, else -1" is pm v.
-/
import proofs.«154967_j10488310137541_2_alg».proof.Proof.Gen.KernelIdeal.Frame
import proofs.«154967_j10488310137541_2_alg».proof.Proof.Spec
import Idealize.ShloMosaic.Lib.Pipeline.Value
import Idealize.ShloMosaic.Lib.StableHlo.Run
import Idealize.ShloMosaic.Lib.Tactic
import Idealize.ShloMosaic.Lib.IdealHost
import Idealize.ShloMosaic.Lib.ValueIdx

noncomputable section

namespace Cert.KernelIdeal.HostPrefix

open Cert.KernelIdeal Cert.KernelIdeal.Gen Cert.Spec
open Idealize.ShloMosaic Idealize.ShloMosaic.TcCoe Idealize.SL.Sem Idealize.ShloMosaic.Tactic Idealize.ShloMosaic.ValueIdx Idealize.ShloMosaic.StableHlo

variable (m : (ℓ : Loc nD τ sig) → Buf (Elt Ideal) ℓ)

/-! ## The two arrays as terms of the arguments -/

/-- The first-layer array when the region is entered: "1 where W1 ≥ 0, else -1", narrowed. -/
theorem V_w1_term (c : Dev nD) : (V m c main_v3 : S4096x4096.Idx → EReal) =
    truncf (F := Ideal) .bf16 (select (cmpf (F := Ideal) .oge (m ((c : Thread nD τ).loc main_arg1)) (broadcastInDim S4096x4096 ![] bcast_S_S4096x4096 (constant (F := Ideal) S_ .f32 0x00000000#32)))
      (broadcastInDim S4096x4096 ![] bcast_S_S4096x4096 (constant (F := Ideal) S_ .f32 0x3F800000#32))
      (broadcastInDim S4096x4096 ![] bcast_S_S4096x4096 (constant (F := Ideal) S_ .f32 0xBF800000#32))) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The second-layer array when the region is entered: "1 where W2 ≥ 0, else -1", narrowed. -/
theorem V_w2_term (c : Dev nD) : (V m c main_v7 : S1x4096.Idx → EReal) =
    truncf (F := Ideal) .bf16 (select (cmpf (F := Ideal) .oge (m ((c : Thread nD τ).loc main_arg2)) (broadcastInDim S1x4096 ![] bcast_S_S1x4096 (constant (F := Ideal) S_ .f32 0x00000000#32)))
      (broadcastInDim S1x4096 ![] bcast_S_S1x4096 (constant (F := Ideal) S_ .f32 0x3F800000#32))
      (broadcastInDim S1x4096 ![] bcast_S_S1x4096 (constant (F := Ideal) S_ .f32 0xBF800000#32))) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## The two arrays entry by entry -/

/-- The first-layer array at (j, k) holds pm W1[j,k]. -/
theorem V_w1_at (c : Dev nD) (j k : Fin 4096) :
    (V m c main_v3 : S4096x4096.Idx → EReal) (ix2 j k) = Cert.Spec.pm (m ((c : Thread nD τ).loc main_arg1) (ix2 j k)) := by
  refine (congrFun (V_w1_term m c) (ix2 j k)).trans ?_
  rw [truncf_apply, select_apply, cmpf_apply, broadcastInDim_scalar_apply, broadcastInDim_scalar_apply,
    broadcastInDim_scalar_apply, constant_apply, constant_apply, constant_apply]
  exact Cert.Spec.select_ge_zero _

/-- The second-layer array at (0, j) holds pm W2[0,j]. -/
theorem V_w2_at (c : Dev nD) (q : Fin 1) (j : Fin 4096) :
    (V m c main_v7 : S1x4096.Idx → EReal) (ix2 q j) = Cert.Spec.pm (m ((c : Thread nD τ).loc main_arg2) (ix2 q j)) := by
  refine (congrFun (V_w2_term m c) (ix2 q j)).trans ?_
  rw [truncf_apply, select_apply, cmpf_apply, broadcastInDim_scalar_apply, broadcastInDim_scalar_apply,
    broadcastInDim_scalar_apply, constant_apply, constant_apply, constant_apply]
  exact Cert.Spec.select_ge_zero _

end Cert.KernelIdeal.HostPrefix

end
-- ==== Proof.Cover.lean ====
/-
  Every entry of each result array is written back by some grid point.

  Both result arrays have 16384 rows and one column, cut into 32 blocks of 512 rows. The grid has 32 × 8 points; point t
  works on row tile t / 8 at step t % 8 of the contraction, and a block is written back at the last step, that is at the
  points t with t % 8 = 7.
  An index lies in point t's block exactly when, on each axis, its coordinate lies in the range
  block index × block size … block index × block size + block size - 1.
  So row p lies in the block of row tile p / 512, and the point that writes that block back is t = 8·(p / 512) + 7:
  it is below 256 because p / 512 is below 32, its remainder modulo 8 is 7, its row tile is p / 512, and
  512·(p / 512) ≤ p < 512·(p / 512) + 512. The column coordinate is 0, inside the single column.
-/
import proofs.«154967_j10488310137541_2_alg».proof.Proof.Gen.KernelIdeal.Frame
import proofs.«154967_j10488310137541_2_alg».proof.Proof.Blocks
import Idealize.ShloMosaic.Lib.Pipeline.Value

noncomputable section

namespace Cert.KernelIdeal.Cover

open Cert.KernelIdeal Cert.KernelIdeal.Gen
open Idealize.ShloMosaic Idealize.ShloMosaic.TcCoe Idealize.SL.Sem

/-! ## The first result array -/

/-- An index of the first result array is in point t's block iff each coordinate is in the block's range on its axis. -/
theorem mem_blk3 (t : Fin cfg0.N) (i : S16384x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v8_0).slice (win0_3.rect t)).set ↔ _
  rw [View.set_slice_whole, Rect.mem_set_unit]
  exact Iff.rfl

/-- Every index of the first result array lies in the block of a point that writes its block back:
    row p is in the block of point 8·(p / 512) + 7. -/
theorem cover3 (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have ht : 8 * ((i 0).val / 512) + 7 < cfg0.N := by rw [show cfg0.N = 256 from N_0]; omega
  refine ⟨⟨8 * ((i 0).val / 512) + 7, ht⟩, (flush0_3 _).mpr (by dsimp only; omega), ?_⟩
  rw [mem_blk3]
  intro a
  match a with
  | ⟨0, _⟩ =>
    show win0_3.index ⟨8 * ((i 0).val / 512) + 7, ht⟩ (0 : Fin 2) * 512 ≤ (i 0).val
      ∧ (i 0).val < win0_3.index ⟨8 * ((i 0).val / 512) + 7, ht⟩ (0 : Fin 2) * 512 + 512
    rw [(Blocks.idx3 _).1]; dsimp only; omega
  | ⟨1, _⟩ =>
    show win0_3.index ⟨8 * ((i 0).val / 512) + 7, ht⟩ (1 : Fin 2) * 1 ≤ (i 1).val
      ∧ (i 1).val < win0_3.index ⟨8 * ((i 0).val / 512) + 7, ht⟩ (1 : Fin 2) * 1 + 1
    rw [(Blocks.idx3 _).2]; omega

/-! ## The second result array -/

/-- An index of the second result array is in point t's block iff each coordinate is in the block's range on its axis. -/
theorem mem_blk4 (t : Fin cfg0.N) (i : S16384x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v8_1).slice (win0_4.rect t)).set ↔ _
  rw [View.set_slice_whole, Rect.mem_set_unit]
  exact Iff.rfl

/-- Every index of the second result array lies in the block of a point that writes its block back:
    row p is in the block of point 8·(p / 512) + 7. -/
theorem cover4 (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have ht : 8 * ((i 0).val / 512) + 7 < cfg0.N := by rw [show cfg0.N = 256 from N_0]; omega
  refine ⟨⟨8 * ((i 0).val / 512) + 7, ht⟩, (flush0_4 _).mpr (by dsimp only; omega), ?_⟩
  rw [mem_blk4]
  intro a
  match a with
  | ⟨0, _⟩ =>
    show win0_4.index ⟨8 * ((i 0).val / 512) + 7, ht⟩ (0 : Fin 2) * 512 ≤ (i 0).val
      ∧ (i 0).val < win0_4.index ⟨8 * ((i 0).val / 512) + 7, ht⟩ (0 : Fin 2) * 512 + 512
    rw [(Blocks.idx4 _).1]; dsimp only; omega
  | ⟨1, _⟩ =>
    show win0_4.index ⟨8 * ((i 0).val / 512) + 7, ht⟩ (1 : Fin 2) * 1 ≤ (i 1).val
      ∧ (i 1).val < win0_4.index ⟨8 * ((i 0).val / 512) + 7, ht⟩ (1 : Fin 2) * 1 + 1
    rw [(Blocks.idx4 _).2]; omega

end Cert.KernelIdeal.Cover

end
-- ==== Proof.KernelValue.lean ====
/-
  What the kernel's run leaves in its two result arrays, as the specification's functions of the arguments.

  The output blocks are written at the last contraction step of each row tile q (grid point 8q + 7) and written back to
  rows 512q … 512q + 511 of the two [16384, 1] arrays. At that point the accumulator holds the hidden units of those rows
  (the fold over the eight steps), so entry (r, 0) of the probabilities' block is the logistic function of
  Σ_j pm (hidden (512q + r) j) · pm W2[0, j], the probability of row 512q + r, and entry (r, 0) of the labels' block is its
  threshold at one half. The thirty-two row tiles cover the 16384 rows, so each array ends at the specification's column.
  After the region the program drops the unit axis of the labels' column: entry i of the vector is entry (i, 0) of the column.
-/
import proofs.«154967_j10488310137541_2_alg».proof.Proof.Fold
import proofs.«154967_j10488310137541_2_alg».proof.Proof.HostPrefix
import proofs.«154967_j10488310137541_2_alg».proof.Proof.Cover
import proofs.«154967_j10488310137541_2_alg».proof.Proof.Spec
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.KernelValue

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

variable (m : (ℓ : Loc nD τ sig) → Buf (Elt Ideal) ℓ) (ρ : Dev nD → PrngReg)

/-- The three argument arrays as launched, as arrays of extended reals. -/
abbrev argX (c : Dev nD) : S16384x4096.Idx → EReal := m ((c.tc : Thread nD τ).loc main_arg0)
abbrev argW1 (c : Dev nD) : S4096x4096.Idx → EReal := m ((c.tc : Thread nD τ).loc main_arg1)
abbrev argW2 (c : Dev nD) : S1x4096.Idx → EReal := m ((c.tc : Thread nD τ).loc main_arg2)

/-- The specification's column of probabilities, column of labels and vector of labels, of the launched arguments. -/
def probs (c : Dev nD) : S16384x1.Idx → EReal := Cert.Spec.out (argX m c) (argW1 m c) (argW2 m c)
def labelsCol (c : Dev nD) : S16384x1.Idx → EReal := Cert.Spec.labels (argX m c) (argW1 m c) (argW2 m c)
def labelsVec (c : Dev nD) : S16384.Idx → EReal := Cert.Spec.yhat (argX m c) (argW1 m c) (argW2 m c)

/-- At the last step of a row tile the accumulator holds the hidden units of the tile's rows. -/
theorem acc_hidden (c : Dev nD) (t : Fin cfg0.N) (h7 : t.val % 8 = 7) (r : Fin 512) (j : Fin 4096) (R : Fin 16384)
    (hR : R.val = 512 * (t.val / 8) + r.val) :
    Fold.acc m c t.val t.isLt (ix2 r j) = Cert.Spec.hidden (argX m c) (argW1 m c) R j := by
  have hN : t.val < 256 := lt_of_lt_of_eq t.isLt (show cfg0.N = 256 from N_0)
  have e : t.val = 8 * (t.val / 8) + 7 := by omega
  have h' : 8 * (t.val / 8) + 7 < cfg0.N := by rw [← e]; exact t.isLt
  rw [Fold.acc_congr m c _ _ e t.isLt h', Fold.acc_last m c (t.val / 8) (by omega) h' r j R hR]
  unfold Cert.Spec.hidden
  refine Finset.sum_congr rfl fun k _ => ?_
  refine congrArg₂ (· * ·) ?_ (HostPrefix.V_w1_at m c j k)
  exact congrFun (V_main_arg0 m c) (ix2 R k)

/-- Entry y of the probabilities' block written at the last step of a row tile is the probability of the row it is written back to. -/
theorem entry3 (c : Dev nD) (t : Fin cfg0.N) (h7 : t.val % 8 = 7) (y : S512x1.Idx) (i : S16384x1.Idx)
    (hi : (i 0).val = 512 * (t.val / 8) + (y 0).val) :
    k0_pay3 (F := Ideal) (Fold.acc m c t.val t.isLt) (iblk m c 2 t) y = probs m c i := by
  obtain ⟨r, u, rfl⟩ : ∃ (r : Fin 512) (u : Fin 1), y = ix2 r u := ⟨y 0, y 1, eq_ix2 y⟩
  refine (Payloads.pay3_apply (Fold.acc m c t.val t.isLt) (iblk m c 2 t) r u).trans ?_
  show Ideal.logistic _ = Cert.Spec.prob (argX m c) (argW1 m c) (argW2 m c) (i 0)
  unfold Cert.Spec.prob Cert.Spec.logit Payloads.rowLogit
  refine congrArg Ideal.logistic (Finset.sum_congr rfl fun j _ => ?_)
  rw [acc_hidden m c t h7 r j (i 0) hi, Blocks.blk2_at m c t 0 j, HostPrefix.V_w2_at m c 0 j]

/-- Entry y of the labels' block is the threshold of that probability. -/
theorem entry4 (c : Dev nD) (t : Fin cfg0.N) (h7 : t.val % 8 = 7) (y : S512x1.Idx) (i : S16384x1.Idx)
    (hi : (i 0).val = 512 * (t.val / 8) + (y 0).val) :
    k0_pay4 (F := Ideal) (Fold.acc m c t.val t.isLt) (iblk m c 2 t) y = labelsCol m c i := by
  obtain ⟨r, u, rfl⟩ : ∃ (r : Fin 512) (u : Fin 1), y = ix2 r u := ⟨y 0, y 1, eq_ix2 y⟩
  refine (Payloads.pay4_apply (Fold.acc m c t.val t.isLt) (iblk m c 2 t) r u).trans ?_
  exact congrArg Cert.Spec.thr (entry3 m c t h7 (ix2 r u) i hi)

/-- What the last step of a row tile leaves in the two output blocks, over the finished accumulator. -/
theorem outs_last (c : Dev nD) (t : Fin cfg0.N) (h0 : ¬t.val % 8 = 0) (h7 : t.val % 8 = 7) :
    (outsAt0 m c t.val t.isLt).1 = k0_pay3 (F := Ideal) (Fold.acc m c t.val t.isLt) (iblk m c 2 t)
    ∧ (outsAt0 m c t.val t.isLt).2.1 = k0_pay4 (F := Ideal) (Fold.acc m c t.val t.isLt) (iblk m c 2 t) := by
  unfold Fold.acc
  rw [outsAt0_C m c t h0 h7]
  dsimp only
  generalize (outsAt0 m c (t.val - 1) _).2.2 = xs0
  have hs := Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
    (fun hh => h0 ((hcond0_0 t).mp hh)) ((hcond0_1 t).mpr h7) (iblk m c 0 t) (iblk m c 1 t) (iblk m c 2 t) xs0
  exact ⟨(Pieces.out3_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => h0 ((hcond0_0 t).mp hh)) ((hcond0_1 t).mpr h7) (iblk m c 0 t) (iblk m c 1 t) (iblk m c 2 t) xs0).trans
      (congrArg (fun a => k0_pay3 (F := Ideal) a (iblk m c 2 t)) hs.symm),
    (Pieces.out4_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => h0 ((hcond0_0 t).mp hh)) ((hcond0_1 t).mpr h7) (iblk m c 0 t) (iblk m c 1 t) (iblk m c 2 t) xs0).trans
      (congrArg (fun a => k0_pay4 (F := Ideal) a (iblk m c 2 t)) hs.symm)⟩

/-- What a grid point writes back to the probabilities' array is its block of the specification's column. -/
theorem flushed3_eq (c : Dev nD) (t : Fin cfg0.N) (hf : (cfg0.win 3).flush t = true) :
    (dats m 0 c).flushed 3 t = ((cfg0.win 3).blk t).view.read (Elt Ideal) (probs m c) := by
  have h7 : t.val % 8 = 7 := (flush0_3 t).mp hf
  have h0 : ¬t.val % 8 = 0 := by omega
  show (cfg0.win 3).cut (grid0.coords t) ((dats m 0 c).after 3 t) = _
  rw [after0_3, (outs_last m c t h0 h7).1]
  funext y
  rw [View.read_apply]
  refine entry3 m c t h7 y _ ?_
  show win0_3.index t (0 : Fin 2) * 512 + 1 * (y 0).val = 512 * (t.val / 8) + (y 0).val
  rw [(Blocks.idx3 t).1]; omega

/-- The same for the labels' array. -/
theorem flushed4_eq (c : Dev nD) (t : Fin cfg0.N) (hf : (cfg0.win 4).flush t = true) :
    (dats m 0 c).flushed 4 t = ((cfg0.win 4).blk t).view.read (Elt Ideal) (labelsCol m c) := by
  have h7 : t.val % 8 = 7 := (flush0_4 t).mp hf
  have h0 : ¬t.val % 8 = 0 := by omega
  show (cfg0.win 4).cut (grid0.coords t) ((dats m 0 c).after 4 t) = _
  rw [after0_4, (outs_last m c t h0 h7).2]
  funext y
  rw [View.read_apply]
  refine entry4 m c t h7 y _ ?_
  show win0_4.index t (0 : Fin 2) * 512 + 1 * (y 0).val = 512 * (t.val / 8) + (y 0).val
  rw [(Blocks.idx4 t).1]; omega

/-- The two result arrays after the run: the specification's columns. -/
theorem final3 (c : Dev nD) : (dats m 0 c).arrAt 3 cfg0.N = probs m c :=
  (dats m 0 c).arrAt_eq_of_cover 3 (probs m c) (flushed3_eq m c) (fun i => Cover.cover3 i)
theorem final4 (c : Dev nD) : (dats m 0 c).arrAt 4 cfg0.N = labelsCol m c :=
  (dats m 0 c).arrAt_eq_of_cover 4 (labelsCol m c) (flushed4_eq m c) (fun i => Cover.cover4 i)

/-- A column [a, 1] cast to the vector [a] reads, at i, the column at (i, 0): the two have the same row-major position. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Dropping the unit axis of the labels' column gives the labels' vector. -/
theorem drop_unit (c : Dev nD) (h : S16384x1.ShapeCasts S16384) : shapeCast S16384 (labelsCol m c) h = labelsVec m c := by
  funext i
  obtain ⟨p, rfl⟩ : ∃ (p : Fin 16384), i = ix1 p := ⟨i 0, eq_ix1 i⟩
  exact shapeCast_a1_a_apply (labelsCol m c) h p

/-- The host operation after the region leaves the labels' vector in the second result. -/
theorem tail_labels (c : Dev nD) :
    Pipeline.afterTail₀ cfgs (dats m) 0 (V0 m) [hostOps1] c main_v9 = labelsVec m c := by
  unfold Pipeline.afterTail₀
  show StableHlo.after hostOps1 _ (Proc.devRef .tc main_v9) = _
  after_results
  have hw : Pipeline.withArrays (cfgs 0).spec c (V0 m c) (fun w => (dats m 0 c).arrAt w (cfgs 0).N)
      (Proc.devRef .tc main_v8_1) = labelsCol m c :=
    (Pipeline.withArrays_arr spec0 launch0.win.arr_inj c _ _ 4).trans (final4 m c)
  funext i
  show shapeCast S16384 (Pipeline.withArrays (cfgs 0).spec c (V0 m c) (fun w => (dats m 0 c).arrAt w (cfgs 0).N)
      (Proc.devRef .tc main_v8_1)) shapeCasts_S16384x1_S16384 i = labelsVec m c i
  rw [hw]
  exact congrFun (drop_unit m c shapeCasts_S16384x1_S16384) i

/-- THE RUN, READ: every weakly fair execution of the kernel's program ends with the first result at the specification's
    column of probabilities, the second at its vector of labels, and the three arguments unchanged. -/
theorem run : θ_run defs (onTc (τ := τ) (main (F := Ideal))) ⟨m, fun _ => 0, ρ⟩ fun r => ∀ c : Dev nD,
      r.2.mem ((c.tc : Thread nD τ).loc main_v8_0) = probs m c
      ∧ r.2.mem ((c.tc : Thread nD τ).loc main_v9) = labelsVec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans (final3 m c),
      ((h c).2 main_v9 (Pipeline.mem_restRefs_of main_v9 (by decide) (by decide))).trans (tail_labels m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.lean ====
/-
  The kernel and its reference compute the same two results on the extended reals.

  Both programs evaluate a two-layer network whose weights and hidden layer are binarised (pm v = +1 for v ≥ 0, -1 below):
      hidden i j = Σ_k X[i,k] · pm W1[j,k],    logit i = Σ_j pm (hidden i j) · pm W2[0,j],
      prob i = 1 / (1 + e^(-logit i)),          label i = 1 if prob i ≥ 1/2 else 0,
  and return the column of probabilities and the vector of labels.

  The kernel walks a 32 × 8 grid: 32 tiles of 512 rows, and for each the 8 blocks of 512 columns of the contraction,
  accumulating x · wᵀ block by block into a [512, 4096] accumulator; at the last block it binarises the accumulator,
  multiplies by the second-layer row, sums along the lanes, applies the logistic function and the threshold, and writes the
  two [512, 1] blocks back. The reference forms the two products whole, clamps the hidden layer to [-1, 1] before
  binarising it, and spells the logistic function as 1 / (1 + e^(-x)). On the extended reals
    * eight runs of 512 consecutive columns add up to the sum over the 4096 columns (addition is commutative and
      associative there, infinities included), and a change of float format is the identity;
    * clamping to [-1, 1] keeps the sign, so it does not change pm;
    * the logistic function is by definition 1 / (1 + e^(-x));
    * a one-bit comparison read as an unsigned integer, or widened and read as a signed one, is the same 0 or 1.
  So both result pairs are the specification's functions of the argument arrays (Proof/Spec.lean), the kernel's by
  Proof/KernelValue.lean and the reference's by Proof/RefValue.lean. No law used needs the inputs to be finite.

  The three frame claims are the programs' runs with the results dropped; the idealised kernel is the kernel's own text read
  on the extended reals (no rewrite was applied), so that claim is trivial.
-/
import proofs.«154967_j10488310137541_2_alg».proof.Defs
import proofs.«154967_j10488310137541_2_alg».proof.Proof.Gen.Kernel
import proofs.«154967_j10488310137541_2_alg».proof.Proof.Gen.Kernel.Skeleton
import proofs.«154967_j10488310137541_2_alg».proof.Proof.Gen.Kernel.Launch
import proofs.«154967_j10488310137541_2_alg».proof.Proof.Gen.Kernel.Points
import proofs.«154967_j10488310137541_2_alg».proof.Proof.Gen.Kernel.Frame
import proofs.«154967_j10488310137541_2_alg».proof.Proof.Gen.KernelIdeal
import proofs.«154967_j10488310137541_2_alg».proof.Proof.Gen.KernelIdeal.Skeleton
import proofs.«154967_j10488310137541_2_alg».proof.Proof.Gen.KernelIdeal.Launch
import proofs.«154967_j10488310137541_2_alg».proof.Proof.Gen.KernelIdeal.Points
import proofs.«154967_j10488310137541_2_alg».proof.Proof.Gen.KernelIdeal.Frame
import proofs.«154967_j10488310137541_2_alg».proof.Proof.Gen.ReferenceIdeal
import proofs.«154967_j10488310137541_2_alg».proof.Proof.Gen.Pre_finite_inputs
import proofs.«154967_j10488310137541_2_alg».proof.Proof.RunP
import proofs.«154967_j10488310137541_2_alg».proof.Proof.ReadP
import proofs.«154967_j10488310137541_2_alg».proof.Proof.RefValue
import proofs.«154967_j10488310137541_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its two results dropped. -/
theorem frame_reference_ideal : Cert.frame_ReferenceIdeal := fun m ρ _ =>
  (θ_run Cert.ReferenceIdeal.defs _ _).mono (fun _ h c => (h c).2.2)
    (Cert.ReferenceIdeal.ValueP.run (F := Ideal) m ρ)

/-- No operation was rewritten between the kernel and its reading on the extended reals. -/
theorem preserves : Cert.preserves_Kernel_KernelIdeal := trivial

/-- From memories that agree on the three arguments both programs end with the specification's column of probabilities and
    vector of labels: the kernel's run read block by block, the reference's stage by stage. -/
theorem algebraic : Cert.algebraic_KernelIdeal_ReferenceIdeal := by
  intro m ρ m' ρ' _ hagree
  refine ⟨fun c => Cert.KernelIdeal.KernelValue.probs m c, fun c => Cert.KernelIdeal.KernelValue.labelsVec m c,
    Cert.KernelIdeal.KernelValue.run m ρ, ?_⟩
  refine (θ_run Cert.ReferenceIdeal.defs _ _).mono (fun _ h c => ?_)
    (Cert.ReferenceIdeal.ValueP.run (F := Ideal) m' ρ')
  obtain ⟨h22, h26, ha0, ha1, ha2⟩ := h c
  obtain ⟨e0, e1, e2⟩ := hagree c
  refine ⟨h22.trans ?_, h26.trans ?_, ha0, ha1, ha2⟩
  · refine (Cert.ReferenceIdeal.ReadP.val_main_v22_eq (F := Ideal) _ _ _).trans ?_
    rw [Cert.ReferenceIdeal.RefValue.ref_out, e0, e1, e2]
    rfl
  · refine (Cert.ReferenceIdeal.ReadP.val_main_v26_eq (F := Ideal) _ _ _).trans ?_
    rw [Cert.ReferenceIdeal.RefValue.ref_yhat, e0, e1, e2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
